-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x4096x2048 .f32) (main_arg1 : FVec F S2048x2048 .f32) (main_arg2 : IVec S2048x2048 1) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4x4096x2048 : Shape := ⟨3, ![4, 4096, 2048]⟩
abbrev S2048x2048 : Shape := ⟨2, ![2048, 2048]⟩
abbrev S16384x2048 : Shape := ⟨2, ![16384, 2048]⟩
abbrev S512x2048 : Shape := ⟨2, ![512, 2048]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .i1⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x512, .f32⟩
  | .local _ .vmem, ⟨7, _⟩ => ⟨S512x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S16384x2048_S4x4096x2048 : S16384x2048.ShapeCasts S4x4096x2048
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x2048.size a
  hwx0_3 : ∀ i : grid0.Coords, EltTy.bits .f32 = 32 ∨ (Rect.block (s := S16384x2048) S512x512.size (cc0_transform_3 i) (hinb0_3 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .i1⟩
  | .hbm, ⟨3, _⟩ => ⟨S2048x2048, .f32⟩
  | .hbm, ⟨4, _⟩ => ⟨S2048x2048, .f32⟩
  | .hbm, ⟨5, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.LibMatmulNT.lean ====
/-
  A matrix product against a transposed right operand, read at an entry.

  At the exact instance a `tpu.matmul` into the zero accumulator is, at each output index, the sum over the dot's
  contraction index of the products of the operands at the indices the dimension numbers name. When an M × K matrix
  meets an N × K matrix and both contract their SECOND axis (the product `a · wᵀ`), the operand indices at output
  (y, j) and contraction coordinate k are (y, k) and (j, k), and the contraction index is its one coordinate; so the
  entry is `Σₖ a[y, k] · w[j, k]` over `Fin K`. The four coordinate facts are hypotheses: for a concrete record each is
  one line (two by the record's own single-axis lemmas, two by unfolding the index function at a decided membership).
-/
import Idealize.ShloMosaic.PureOps.Ideal.Laws
import Idealize.ShloMosaic.Lib.ValueIdx

noncomputable section

namespace Cert.MaskedDense.Lib

open Idealize.ShloMosaic Idealize.ShloMosaic.ValueIdx

/-- Entry (y, j) of an M × K by N × K product contracted along both second axes and accumulated into zero is
    `Σₖ a (y, k) · w (j, k)`, `k` over `Fin K`: the contraction index re-read as its one coordinate (`hr`, `hs`: one
    contracted axis of extent K), the operand indices by their coordinates (`hl0`, `hl1`, `hr0`, `hr1`). Only the
    re-indexing of a finite sum is used, so it holds with infinite entries too. -/
theorem matmul_nt_zero_ix2_apply {M K N : Nat} {φ₁ φ₂ : FTy}
    (d : DotDims ⟨2, ![M, K]⟩ ⟨2, ![N, K]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (i 1).val)
    (hr1 : ∀ (i : (⟨2, ![M, N]⟩ : Shape).Idx) (q : d.contr.Idx), (d.rhsIdx i q 1).val = (q ⟨0, by omega⟩).val)
    (prec : Option ContractPrecision) (a : FVec Ideal ⟨2, ![M, K]⟩ φ₁) (w : FVec Ideal ⟨2, ![N, K]⟩ φ₂)
    (y : Fin M) (j : Fin N) :
    FloatOps.matmul d prec a w (constant ⟨2, ![M, N]⟩ .f32 0x00000000#32) (ix2 y j)
      = ∑ k : Fin K, a (ix2 y k) * w (ix2 j k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 j k := funext fun c => Fin.ext (by
    match c with
    | ⟨0, _⟩ => exact hr0 _ _
    | ⟨1, _⟩ => exact (hr1 _ _).trans hk)
  rw [el, er]

end Cert.MaskedDense.Lib

end
-- ==== Proof.Payload.lean ====
/-
  One block of the kernel's product, entry by entry.

  At a grid point the body holds three blocks: 512 rows of the flattened input (`xb`), and the matching 512 rows of the
  weight (`wb`) and of the 0/1 factor (`gb`), each 2048 wide. It multiplies weight and factor entry by entry, changes
  both operands' float format (the identity on exact values), and contracts the two second axes into a zero
  accumulator. So entry (p, q) of what it stores is `Σₖ xb[p, k] · (wb[q, k] · gb[q, k])`: row p of the input block
  against row q of the masked weight block.
-/
import proofs.«107917_j16638703304904_1_alg».proof.Proof.Gen.KernelIdeal.Skeleton
import proofs.«107917_j16638703304904_1_alg».proof.Proof.LibMatmulNT
import Idealize.ShloMosaic.Lib.Pipeline.Value

noncomputable section

namespace Cert.MaskedDense.Body

open Idealize.ShloMosaic Idealize.ShloMosaic.ValueIdx Cert.KernelIdeal Cert.KernelIdeal.Gen

/-- The body's dot contracts axis 1 of both operands; its output axes are the operands' first axes, left then right. -/
abbrev D := dot_S512x2048_S512x2048_S512x512_1_1_0_0_n_n

theorem lhs0 (i : S512x512.Idx) (q : D.contr.Idx) : (D.lhsIdx i q 0).val = (i 0).val := by
  unfold DotDims.lhsIdx
  rw [dif_neg (show ¬(0 : Fin S512x2048.rank) ∈ D.lhsBatch by decide), dif_pos (show (0 : Fin S512x2048.rank) ∈ D.lhsNonContracting by decide)]
  rfl
theorem lhs1 (i : S512x512.Idx) (q : D.contr.Idx) : (D.lhsIdx i q 1).val = (q ⟨0, by decide⟩).val :=
  D.lhsIdx_val_of_single rfl i q
theorem rhs0 (i : S512x512.Idx) (q : D.contr.Idx) : (D.rhsIdx i q 0).val = (i 1).val := by
  unfold DotDims.rhsIdx
  rw [dif_neg (show ¬(0 : Fin S512x2048.rank) ∈ D.rhsBatch by decide), dif_pos (show (0 : Fin S512x2048.rank) ∈ D.rhsNonContracting by decide)]
  rfl
theorem rhs1 (i : S512x512.Idx) (q : D.contr.Idx) : (D.rhsIdx i q 1).val = (q ⟨0, by decide⟩).val :=
  D.rhsIdx_val_of_single rfl i q

/-- Entry (p, q) of the stored block: row p of the input block against row q of weight times factor. The two
    same-shape casts and the two format changes read through; the contraction is the transposed product's. -/
theorem stored_apply (wb gb xb : FVec Ideal S512x2048 .f32) (p q : Fin 512) :
    k0_pay1 (F := Ideal) wb gb xb (ix2 p q) = ∑ k : Fin 2048, xb (ix2 p k) * (wb (ix2 q k) * gb (ix2 q k)) := by
  unfold k0_pay1
  refine (Lib.matmul_nt_zero_ix2_apply (M := 512) (K := 2048) (N := 512) D rfl rfl lhs0 lhs1 rhs0 rhs1 none _ _ p q).trans ?_
  refine Finset.sum_congr rfl fun k _ => ?_
  rw [shapeCast_self, shapeCast_self]
  rfl

end Cert.MaskedDense.Body

end
-- ==== Proof.Spec.lean ====
/-
  The masked dense layer as one function of its arguments.

  With `x : [4, 4096, 2048]`, a weight `w : [2048, 2048]` (rows are outputs, columns inputs) and a 0/1 factor
  `g : [2048, 2048]` of the same layout, the layer is

      out[b, s, o] = Σₖ x[b, s, k] · (w[o, k] · g[o, k]),   k over the 2048 inputs.

  A program may also flatten the two leading axes first — `x` read as 16384 rows of 2048 — compute

      rows[r, o] = Σₖ x₂[r, k] · (w[o, k] · g[o, k])

  and fold the rows back into [4, 4096, 2048]. Row-major order makes the two the same array: row `r = b·4096 + s` of the
  flattened `x` is `x[b, s, ·]`, and entry (r, o) of the flat result is entry (b, s, o) of the folded one. No
  arithmetic on the extended reals is involved, only which entries are summed, so nothing here needs finite inputs.
-/
import Idealize.ShloMosaic.PureOps.Ideal
import Idealize.ShloMosaic.Lib.ValueIdx
import Idealize.ShloMosaic.Lib.Pipeline.Value

noncomputable section

namespace Cert.MaskedDense

open Idealize.ShloMosaic Idealize.ShloMosaic.ValueIdx

/-- The three shapes, spelt literally (the printed programs' own abbreviations unfold to these). -/
abbrev Cube : Shape := ⟨3, ![4, 4096, 2048]⟩
abbrev Flat : Shape := ⟨2, ![16384, 2048]⟩
abbrev Sq : Shape := ⟨2, ![2048, 2048]⟩

/-- The layer over the flattened input: `rows[r, o] = Σₖ x₂[r, k] · (w[o, k] · g[o, k])`. -/
def rows (x2 : Flat.Idx → EReal) (w g : Sq.Idx → EReal) : Flat.Idx → EReal :=
  fun j => ∑ k : Fin 2048, x2 (ix2 (j 0) k) * (w (ix2 (j 1) k) * g (ix2 (j 1) k))

/-- The layer: `out[b, s, o] = Σₖ x[b, s, k] · (w[o, k] · g[o, k])`. -/
def out (x : Cube.Idx → EReal) (w g : Sq.Idx → EReal) : Cube.Idx → EReal :=
  fun i => ∑ k : Fin 2048, x (ix3 (i 0) (i 1) k) * (w (ix2 (i 2) k) * g (ix2 (i 2) k))

/-- Flattening the input, taking `rows`, and folding the result back is `out`: entry (b, s, o) of the folded array is
    entry (b·4096 + s, o) of the flat one, and row b·4096 + s of the flattened input is `x[b, s, ·]` — both by the
    row-major position, `(b·4096 + s)·2048 + c` on either side. -/
theorem fold_rows_flatten (x : Cube.Idx → EReal) (w g : Sq.Idx → EReal) (h1 : Cube.ShapeCasts Flat) (h2 : Flat.ShapeCasts Cube) :
    shapeCast Cube (rows (shapeCast Flat x h1) w g) h2 = out x w g := by
  funext i
  obtain ⟨b, s, o, rfl⟩ : ∃ (b : Fin 4) (s : Fin 4096) (o : Fin 2048), i = ix3 b s o := ⟨i 0, i 1, i 2, eq_ix3 i⟩
  have hrow : b.val * 4096 + s.val < 16384 := by have := b.isLt; have := s.isLt; omega
  rw [shapeCast_apply _ h2 (ix3 b s o) (ix2 (⟨b.val * 4096 + s.val, hrow⟩ : Fin 16384) o) (by
    rw [Shape.rowMajor_val_two, Shape.rowMajor_val_three]; rfl)]
  show (∑ k : Fin 2048, shapeCast Flat x h1 (ix2 (⟨b.val * 4096 + s.val, hrow⟩ : Fin 16384) k) * (w (ix2 o k) * g (ix2 o k)))
    = ∑ k : Fin 2048, x (ix3 b s k) * (w (ix2 o k) * g (ix2 o k))
  refine Finset.sum_congr rfl fun k _ => ?_
  rw [shapeCast_apply x h1 (ix2 (⟨b.val * 4096 + s.val, hrow⟩ : Fin 16384) k) (ix3 b s k) (by
    rw [Shape.rowMajor_val_two, Shape.rowMajor_val_three]; rfl)]

end Cert.MaskedDense

end
-- ==== Proof.Blocks.lean ====
/-
  From blocks to the flat result array.

  The region walks a 32 × 4 grid. At point (a, b) it fetches rows 512·a … 512·a + 511 of the flattened input and rows
  512·b … 512·b + 511 of the weight and of the 0/1 factor (all 2048 columns of each), and writes back the 512 × 512
  block of the flat result whose corner is (512·a, 512·b). Entry (p, q) of that block is row p of the input block against
  row q of the masked weight block, which is entry (512·a + p, 512·b + q) of `rows` of the three whole arrays. The
  128 blocks tile the 16384 × 2048 result — entry (r, o) lies in the block of point (r / 512, o / 512) — so after the
  region the whole array is `rows`. Before the region the host flattens the input and converts the mask; the weight
  comes as launched.
-/
import proofs.«107917_j16638703304904_1_alg».proof.Proof.Gen.KernelIdeal.Frame
import proofs.«107917_j16638703304904_1_alg».proof.Proof.Payload
import proofs.«107917_j16638703304904_1_alg».proof.Proof.Spec

set_option maxRecDepth 16384

noncomputable section

namespace Cert.MaskedDense.Region

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## What the region finds -/

/-- The region's first operand is the input flattened to 16384 rows. -/
theorem entry_flat (c : Dev nD) :
    (V m c main_v0 : S16384x2048.Idx → EReal)
      = shapeCast S16384x2048 (m ((c : Thread nD τ).loc main_arg0)) shapeCasts_S4x4096x2048_S16384x2048 := by
  show StableHlo.after hostOps0 (fun b => m (c, b)) (Proc.devRef .tc main_v0) = _
  after_results
  rfl

/-- Its third operand is the mask converted to 0/1 floats. -/
theorem entry_factor (c : Dev nD) :
    (V m c main_v1 : S2048x2048.Idx → EReal) = uitofp (F := Ideal) .f32 (m ((c : Thread nD τ).loc main_arg2)) := by
  show StableHlo.after hostOps0 (fun b => m (c, b)) (Proc.devRef .tc main_v1) = _
  after_results

/-! ## The index maps over the grid -/

theorem hz : (![0, 0] : Fin 2 → Nat) = fun _ => 0 := funext fun a => by fin_cases a <;> rfl

/-- Decided once over the 128 points: the input block moves with the output's row block, the weight and factor blocks
    with its column block, each spanning all its columns; and the output's block indices stay inside 32 × 4. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0
    ∧ win0_3.index t (0 : Fin 2) ≤ 31 ∧ win0_3.index t (1 : Fin 2) ≤ 3 :=
  (by decide +kernel : ∀ t : Fin grid0.N, _)

/-- Every one of the 32 × 4 output blocks is some point's. -/
theorem idx_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-! ## What a point writes back -/

/-- Point `t` writes back its block of `rows` of the three arrays as the region finds them. -/
theorem flushed_eq (c : Dev nD) (t : Fin cfg0.N) :
    (dats m 0 c).flushed 3 t
      = ((cfg0.win 3).blk t).view.read (Elt Ideal) (rows (V m c main_v0) (V m c main_arg1) (V m c main_v1)) := by
  show (cfg0.win 3).cut (grid0.coords t) ((dats m 0 c).after 3 t) = _
  rw [after0_3]
  unfold out0_3
  rw [View.canon_unit_zero hz]
  simp only [View.ld_unit_zero (S := S512x2048) hz]
  obtain ⟨e0, e1, e2, e3, e4, e5, e6, e7⟩ := idx_facts t
  funext j
  show k0_pay1 (F := Ideal) (iblk m c 1 t) (iblk m c 2 t) (iblk m c 0 t) j
    = rows (V m c main_v0) (V m c main_arg1) (V m c main_v1) (((cfg0.win 3).blk t).view.emb j)
  have hj0 : (j 0).val < 512 := (j 0).isLt
  have hj1 : (j 1).val < 512 := (j 1).isLt
  refine ((congrArg (k0_pay1 (F := Ideal) (iblk m c 1 t) (iblk m c 2 t) (iblk m c 0 t)) (eq_ix2 j)).trans
    (Body.stored_apply (iblk m c 1 t) (iblk m c 2 t) (iblk m c 0 t) (j 0) (j 1))).trans ?_
  refine Finset.sum_congr rfl fun k _ => ?_
  have hk : k.val < 2048 := k.isLt
  have bx : iblk m c 0 t (ix2 (j 0) k) = V m c main_v0 (ix2 ((((cfg0.win 3).blk t).view.emb j) 0) k) := by
    show V m c main_v0 (((cfg0.win 0).blk t).view.emb (ix2 (j 0) k)) = _
    refine congrArg (V m c main_v0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * k.val = k.val; omega
  have bw : iblk m c 1 t (ix2 (j 1) k) = V m c main_arg1 (ix2 ((((cfg0.win 3).blk t).view.emb j) 1) k) := by
    show V m c main_arg1 (((cfg0.win 1).blk t).view.emb (ix2 (j 1) k)) = _
    refine congrArg (V m c main_arg1) (funext fun a => Fin.ext ?_)
    match a with
    | ⟨0, _⟩ => show win0_1.index t (0 : Fin 2) * 512 + 1 * (j 1).val = win0_3.index t (1 : Fin 2) * 512 + 1 * (j 1).val; omega
    | ⟨1, _⟩ => show win0_1.index t (1 : Fin 2) * 2048 + 1 * k.val = k.val; omega
  have bg : iblk m c 2 t (ix2 (j 1) k) = V m c main_v1 (ix2 ((((cfg0.win 3).blk t).view.emb j) 1) k) := by
    show V m c main_v1 (((cfg0.win 2).blk t).view.emb (ix2 (j 1) k)) = _
    refine congrArg (V m c main_v1) (funext fun a => Fin.ext ?_)
    match a with
    | ⟨0, _⟩ => show win0_2.index t (0 : Fin 2) * 512 + 1 * (j 1).val = win0_3.index t (1 : Fin 2) * 512 + 1 * (j 1).val; omega
    | ⟨1, _⟩ => show win0_2.index t (1 : Fin 2) * 2048 + 1 * k.val = k.val; omega
  rw [bx, bw, bg]

/-! ## The blocks tile the array -/

/-- An entry of the flat result lies in point `t`'s block iff each coordinate lies in the block's range on its axis. -/
theorem mem_blk (t : Fin cfg0.N) (i : S16384x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2).slice (win0_3.rect t)).set ↔ _
  rw [View.set_slice_whole, Rect.mem_set_unit]
  exact Iff.rfl

/-- Entry (r, o) lies in the block of the point whose output block index is (r / 512, o / 512). -/
theorem cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-! ## The flat result after the region -/

/-- After the last point the flat result array is `rows` of the flattened input, the weight and the converted mask. -/
theorem flat_result (c : Dev nD) :
    (dats m 0 c).arrAt 3 cfg0.N
      = rows (shapeCast S16384x2048 (m ((c : Thread nD τ).loc main_arg0)) shapeCasts_S4x4096x2048_S16384x2048)
          (m ((c : Thread nD τ).loc main_arg1)) (uitofp (F := Ideal) .f32 (m ((c : Thread nD τ).loc main_arg2))) := by
  rw [← entry_flat m c, ← entry_factor m c, ← V_main_arg1 m c]
  exact (dats m 0 c).arrAt_eq_of_cover 3 _ (fun t _ => flushed_eq m c t) cover

end Cert.MaskedDense.Region

end
-- ==== Proof.KernelValue.lean ====
/-
  The kernel's program computes `out`.

  After the region the host folds the 16384 × 2048 flat result back into [4, 4096, 2048]. The flat result is `rows` of the
  flattened input, the weight and the converted mask, and folding `rows` of a flattened input is `out` of the input
  itself: the program's result is `out x w g` with `g` the mask as 0/1 floats. The three argument arrays end as launched.
-/
import proofs.«107917_j16638703304904_1_alg».proof.Proof.Blocks

set_option maxRecDepth 16384

noncomputable section

namespace Cert.MaskedDense.KernelValue

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- What the line after the region leaves in the result buffer: the flat result folded back, which is `out`. -/
theorem result (c : Dev nD) :
    Pipeline.afterTail₀ cfgs (dats m) 0 (V0 m) [hostOps1] c main_v3
      = out (m ((c : Thread nD τ).loc main_arg0)) (m ((c : Thread nD τ).loc main_arg1))
          (uitofp (F := Ideal) .f32 (m ((c : Thread nD τ).loc main_arg2))) := by
  unfold Pipeline.afterTail₀
  show StableHlo.after hostOps1 _ (Proc.devRef .tc main_v3) = _
  after_results
  show shapeCast S4x4096x2048 (Pipeline.withArrays spec0 c (V0 m c) (fun w => (dats m 0 c).arrAt w cfg0.N)
      (Proc.devRef .tc (Pipeline.arrRef spec0 3))) shapeCasts_S16384x2048_S4x4096x2048 = _
  rw [Pipeline.withArrays_arr spec0 launch0.win.arr_inj c _ _ 3]
  show shapeCast S4x4096x2048 ((dats m 0 c).arrAt 3 cfg0.N) shapeCasts_S16384x2048_S4x4096x2048 = _
  rw [Region.flat_result m c]
  exact fold_rows_flatten _ _ _ _ _

/-- Every weakly fair execution of the kernel's program terminates with the result buffer at `out` of the input, the
    weight and the mask as 0/1 floats, and the three arguments as launched: the generated frame run, its post read at
    the result buffer (a buffer the region does not stage, so it holds what the line after the region left) and at the
    arguments. -/
theorem run : θ_run defs (onTc (τ := τ) (main (F := Ideal))) ⟨m, fun _ => 0, ρ⟩ fun r => ∀ c : Dev nD,
      r.2.mem ((c.tc : Thread nD τ).loc main_v3)
        = out (m ((c.tc : Thread nD τ).loc main_arg0)) (m ((c.tc : Thread nD τ).loc main_arg1))
            (uitofp (F := Ideal) .f32 (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.MaskedDense.KernelValue

end
-- ==== Proof.RefValue.lean ====
/-
  The reference computes `out`.

  It converts the boolean mask to a 0/1 float array, multiplies the weight by it entry by entry, and contracts the
  input's last axis with the product's second axis. Read at (b, s, o) that is `Σₖ x[b, s, k] · (w[o, k] · g[o, k])` with
  `g` the converted mask — the specification, term for term.
-/
import proofs.«107917_j16638703304904_1_alg».proof.Proof.Gen.ReferenceIdeal.Read
import proofs.«107917_j16638703304904_1_alg».proof.Proof.Spec

noncomputable section

namespace Cert.MaskedDense.RefValue

open Idealize.ShloMosaic Idealize.ShloMosaic.ValueIdx Cert.ReferenceIdeal Cert.ReferenceIdeal.Read

/-- The contraction reads the input at (b, s, k) … -/
theorem lidx_eq (i : S4x4096x2048.Idx) (k : Fin 2048) : lidx_main_v2 i k = ix3 (i 0) (i 1) k :=
  funext fun a => Fin.ext (by match a with | ⟨0, _⟩ => rfl | ⟨1, _⟩ => rfl | ⟨2, _⟩ => rfl)
/-- … and the masked weight at (o, k). -/
theorem ridx_eq (i : S4x4096x2048.Idx) (k : Fin 2048) : ridx_main_v2 i k = ix2 (i 2) k :=
  funext fun a => Fin.ext (by match a with | ⟨0, _⟩ => rfl | ⟨1, _⟩ => rfl)

/-- The reference's result, as a function of its three arguments, is `out` of the input, the weight and the converted mask. -/
theorem result_eq (x : (⟨S4x4096x2048, .f32⟩ : BufTy).Contents (Elt Ideal)) (w : (⟨S2048x2048, .f32⟩ : BufTy).Contents (Elt Ideal))
    (mk : (⟨S2048x2048, .i1⟩ : BufTy).Contents (Elt Ideal)) :
    val_main_v2 (F := Ideal) x w mk = out x w (uitofp (F := Ideal) .f32 mk) := by
  funext i
  rw [val_main_v2_apply]
  refine Finset.sum_congr rfl fun k _ => ?_
  rw [val_main_v1_apply, val_main_v0_apply, lidx_eq, ridx_eq]
  rfl

end Cert.MaskedDense.RefValue

end
-- ==== Proof.lean ====
/-
  A masked dense layer, tiled on the MXU, against its einsum reference.

  Both programs compute, from an input `x : [4, 4096, 2048]`, a weight `w : [2048, 2048]` and a boolean mask of the
  weight's shape converted to 0/1 floats `g`,

      out[b, s, o] = Σₖ x[b, s, k] · (w[o, k] · g[o, k]).

  The reference does it in three host operations (convert, multiply, contract). The kernel's program flattens `x` to
  16384 rows, walks a 32 × 4 grid of 512 × 512 output blocks — each block the product of 512 input rows with the
  transpose of 512 masked weight rows, operands passed through a narrower float format, which is the identity on exact
  values — and folds the flat result back. Blocks tile the flat array, row-major flattening commutes with taking rows,
  and each side's sum runs over the same 2048 products in the same factor order, so the two results agree entry by
  entry on the extended reals with no appeal to finiteness: the precondition is used by no step of the value proof.

  The three frames are the generated ones (the reference's is its generated run with the result dropped). No operation
  of the kernel is rewritten in its idealization — the idealized program is the kernel's own text read over exact
  values — so `preserves` is `True`.
-/
import proofs.«107917_j16638703304904_1_alg».proof.Defs
import proofs.«107917_j16638703304904_1_alg».proof.Proof.Gen.Kernel
import proofs.«107917_j16638703304904_1_alg».proof.Proof.Gen.Kernel.Skeleton
import proofs.«107917_j16638703304904_1_alg».proof.Proof.Gen.Kernel.Launch
import proofs.«107917_j16638703304904_1_alg».proof.Proof.Gen.Kernel.Points
import proofs.«107917_j16638703304904_1_alg».proof.Proof.Gen.Kernel.Frame
import proofs.«107917_j16638703304904_1_alg».proof.Proof.Gen.KernelIdeal
import proofs.«107917_j16638703304904_1_alg».proof.Proof.Gen.KernelIdeal.Skeleton
import proofs.«107917_j16638703304904_1_alg».proof.Proof.Gen.KernelIdeal.Launch
import proofs.«107917_j16638703304904_1_alg».proof.Proof.Gen.KernelIdeal.Points
import proofs.«107917_j16638703304904_1_alg».proof.Proof.Gen.KernelIdeal.Frame
import proofs.«107917_j16638703304904_1_alg».proof.Proof.Gen.ReferenceIdeal
import proofs.«107917_j16638703304904_1_alg».proof.Proof.Gen.Pre_finite_inputs
import proofs.«107917_j16638703304904_1_alg».proof.Proof.Gen.ReferenceIdeal.Run
import proofs.«107917_j16638703304904_1_alg».proof.Proof.Gen.ReferenceIdeal.Read
import proofs.«107917_j16638703304904_1_alg».proof.Proof.KernelValue
import proofs.«107917_j16638703304904_1_alg».proof.Proof.RefValue
import Idealize.ShloMosaic.Adequacy
import Idealize.ShloMosaic.Init

noncomputable section

namespace Cert.Proof

open Idealize.ShloMosaic Idealize.ShloMosaic.TcCoe Idealize.SL.Sem

/-- Every execution of the kernel's program terminates without a fault and leaves its arguments as launched. -/
theorem frame_kernel : Cert.frame_Kernel := fun m ρ _ => Cert.Kernel.Gen.frame m ρ
/-- The same of its idealization. -/
theorem frame_kernel_ideal : Cert.frame_KernelIdeal := fun m ρ _ => Cert.KernelIdeal.Gen.frame m ρ
/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with `out` of the input, the weight and the mask
    as 0/1 floats: the kernel's program by its blocks and the two reshapes, the reference term for term. -/
theorem algebraic : Cert.algebraic_KernelIdeal_ReferenceIdeal := by
  intro m ρ m' ρ' _ hagree
  refine ⟨_, Cert.MaskedDense.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.MaskedDense.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
